-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32768 : Shape := ⟨2, ![512, 32768]⟩
abbrev S32768x64 : Shape := ⟨2, ![32768, 64]⟩
abbrev S32769 : Shape := ⟨1, ![32769]⟩
abbrev S1048576 : Shape := ⟨1, ![1048576]⟩
abbrev S_ : Shape := ⟨0, ![]⟩

class Facts : Prop where
  bcast_S_S512x32768 : S_.BroadcastsInDim S512x32768 (![] : Fin 0 → Fin S512x32768.rank)
  reducesTo_S512x32768_S_d0_1 : S512x32768.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  main_v18

def fn {F : FTy → Type} [FloatOps F] (main_arg0 : FVec F S512x32768 .f32) (main_arg1 : FVec F S32768x64 .f32) (main_arg2 : FVec F S32768x64 .f32) (main_arg3 : IVec S32769 32) (main_arg4 : IVec S1048576 32) (main_arg5 : FVec F S1048576 .f32) : IVec S_ 1 :=
  let main_v0 : FVec F S512x32768 .f32 := Host.absf main_arg0
  let main_cst : FVec F S_ .f32 := constant S_ .f32 0x7F800000#32
  let main_v1 : FVec F S512x32768 .f32 := broadcastInDim S512x32768 ![] bcast_S_S512x32768 main_cst
  let main_v2 : IVec S512x32768 1 := cmpf .olt main_v0 main_v1
  let main_c : IVec S_ 1 := constantI S_ 1 1#1
  let main_v3 : IVec S_ 1 := (fun x v => Host.reduce IntOp.andi x v reducesTo_S512x32768_S_d0_1 h_S_) main_v2 main_c
  let main_v4 : FVec F S32768x64 .f32 := Host.absf main_arg1
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S32768x64 .f32 := Host.absf main_arg2
  let main_cst_2 : FVec F S_ .f32 := constant S_ .f32 0x7F800000#32
  let main_v10 : FVec F S32768x64 .f32 := broadcastInDim S32768x64 ![] bcast_S_S32768x64 main_cst_2
  let main_v11 : IVec S32768x64 1 := cmpf .olt main_v9 main_v10
  let main_c_3 : IVec S_ 1 := constantI S_ 1 1#1
  let main_v12 : IVec S_ 1 := (fun x v => Host.reduce IntOp.andi x v reducesTo_S32768x64_S_d0_1 h_S_) main_v11 main_c_3
  let main_v13 : IVec S_ 1 := andi main_v8 main_v12
  let main_v14 : FVec F S1048576 .f32 := Host.absf main_arg5
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_v13 main_v16
-- ==== Kernel.lean ====
abbrev S512x32768 : Shape := ⟨2, ![512, 32768]⟩
abbrev S32768x64 : Shape := ⟨2, ![32768, 64]⟩
abbrev S32769 : Shape := ⟨1, ![32769]⟩
abbrev S1048576 : Shape := ⟨1, ![1048576]⟩
abbrev S512x64 : Shape := ⟨2, ![512, 64]⟩
abbrev S256x4096 : Shape := ⟨2, ![256, 4096]⟩
abbrev S4096x64 : Shape := ⟨2, ![4096, 64]⟩
abbrev S256x64 : Shape := ⟨2, ![256, 64]⟩
abbrev S512x4096 : Shape := ⟨2, ![512, 4096]⟩

abbrev nBuf : Space → Nat
  | .hbm => 8
  | .vmem => 12
  | .smem => 0
  | _ => 0

abbrev bufTy : (tb : Table) → Fin (tcTables nBuf tb) → BufTy
  | .hbm, ⟨0, _⟩ => ⟨S512x32768, .f32⟩
  | .hbm, ⟨1, _⟩ => ⟨S32768x64, .f32⟩
  | .hbm, ⟨2, _⟩ => ⟨S32768x64, .f32⟩
  | .hbm, ⟨3, _⟩ => ⟨S32769, .i32⟩
  | .hbm, ⟨4, _⟩ => ⟨S1048576, .i32⟩
  | .hbm, ⟨5, _⟩ => ⟨S1048576, .f32⟩
  | .hbm, ⟨6, _⟩ => ⟨S512x64, .bf16⟩
  | .hbm, ⟨7, _⟩ => ⟨S512x32768, .f32⟩
  | .local _ .vmem, ⟨0, _⟩ => ⟨S256x4096, .f32⟩
  | .local _ .vmem, ⟨1, _⟩ => ⟨S256x4096, .f32⟩
  | .local _ .vmem, ⟨2, _⟩ => ⟨S4096x64, .f32⟩
  | .local _ .vmem, ⟨3, _⟩ => ⟨S4096x64, .f32⟩
  | .local _ .vmem, ⟨4, _⟩ => ⟨S256x64, .bf16⟩
  | .local _ .vmem, ⟨5, _⟩ => ⟨S256x64, .bf16⟩
  | .local _ .vmem, ⟨6, _⟩ => ⟨S256x64, .f32⟩
  | .local _ .vmem, ⟨7, _⟩ => ⟨S512x64, .bf16⟩
  | .local _ .vmem, ⟨8, _⟩ => ⟨S4096x64, .f32⟩
  | .local _ .vmem, ⟨9, _⟩ => ⟨S4096x64, .f32⟩
  | .local _ .vmem, ⟨10, _⟩ => ⟨S512x4096, .f32⟩
  | .local _ .vmem, ⟨11, _⟩ => ⟨S512x4096, .f32⟩
  | _, _ => ⟨S512x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x64 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  packedbf16_S256x64_S256x64_0_0 : (Rect.unit (s := S256x64) ![0, 0] S256x64.size inb_S256x64_S256x64_0_0).PackedRows (EltTy.packing .bf16)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x4096_S512x4096_0_0 : ∀ a, (![0, 0] : Fin 2 → Nat) a + S512x4096.size a ≤ S512x4096.size a
  h_S512x4096 : 0 < S512x4096.numel
  dot_S256x4096_S4096x64_S256x64_1_0_0_1_n_n_wf : DotDims.WF S256x4096 S4096x64 S256x64 [1] [0] [0] [1] [] []
  dot_S512x64_S4096x64_S512x4096_1_1_0_0_n_n_wf : DotDims.WF S512x64 S4096x64 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S512x32768.size a
  hwx0_0 : ∀ i : grid0.Coords, EltTy.bits .f32 = 32 ∨ (Rect.block (s := S512x32768) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S32768x64.size a
  hwx0_1 : ∀ i : grid0.Coords, EltTy.bits .f32 = 32 ∨ (Rect.block (s := S32768x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S512x64.size a
  hwx0_2 : ∀ i : grid0.Coords, EltTy.bits .bf16 = 32 ∨ (Rect.block (s := S512x64) S256x64.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S512x64.size a
  hwx1_0 : ∀ i : grid1.Coords, EltTy.bits .bf16 = 32 ∨ (Rect.block (s := S512x64) S512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S32768x64.size a
  hwx1_1 : ∀ i : grid1.Coords, EltTy.bits .f32 = 32 ∨ (Rect.block (s := S32768x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S512x32768.size a
  hwx1_2 : ∀ i : grid1.Coords, EltTy.bits .f32 = 32 ∨ (Rect.block (s := S512x32768) S512x4096.size (cc1_transform_2 i) (hinb1_2 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x32768 : Shape := ⟨2, ![512, 32768]⟩
abbrev S32768x64 : Shape := ⟨2, ![32768, 64]⟩
abbrev S32769 : Shape := ⟨1, ![32769]⟩
abbrev S1048576 : Shape := ⟨1, ![1048576]⟩
abbrev S512x64 : Shape := ⟨2, ![512, 64]⟩
abbrev S64x32768 : Shape := ⟨2, ![64, 32768]⟩

abbrev nBuf : Space → Nat
  | .hbm => 9
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S32768x64, .f32⟩
  | .hbm, ⟨2, _⟩ => ⟨S32768x64, .f32⟩
  | .hbm, ⟨3, _⟩ => ⟨S32769, .i32⟩
  | .hbm, ⟨4, _⟩ => ⟨S1048576, .i32⟩
  | .hbm, ⟨5, _⟩ => ⟨S1048576, .f32⟩
  | .hbm, ⟨6, _⟩ => ⟨S512x64, .f32⟩
  | .hbm, ⟨7, _⟩ => ⟨S64x32768, .f32⟩
  | .hbm, ⟨8, _⟩ => ⟨S512x32768, .f32⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  transposes_S32768x64_S64x32768_1_0 : S32768x64.Transposes [1, 0] S64x32768
  dot_S512x32768_S32768x64_S512x64_1_0_0_1_n_n_wf : DotDims.WF S512x32768 S32768x64 S512x64 [1] [0] [0] [1] [] []
  dot_S512x64_S64x32768_S512x32768_1_0_0_1_n_n_wf : DotDims.WF S512x64 S64x32768 S512x32768 [1] [0] [0] [1] [] []

variable [Facts₀]

def dot_S512x32768_S32768x64_S512x64_1_0_0_1_n_n : DotDims S512x32768 S32768x64 S512x64 where
  lhsContracting := [1]
  rhsContracting := [0]
  lhsNonContracting := [0]
  rhsNonContracting := [1]
  lhsBatch := []
  rhsBatch := []
  wf := dot_S512x32768_S32768x64_S512x64_1_0_0_1_n_n_wf
def dot_S512x64_S64x32768_S512x32768_1_0_0_1_n_n : DotDims S512x64 S64x32768 S512x32768 where
  lhsContracting := [1]
  rhsContracting := [0]
  lhsNonContracting := [0]
  rhsNonContracting := [1]
  lhsBatch := []
  rhsBatch := []
  wf := dot_S512x64_S64x32768_S512x32768_1_0_0_1_n_n_wf

class Facts : Prop extends Facts₀ where

variable [Facts]
-- ==== Proof.BitsZRegion.lean ====
/-
  The first region of the program: grid 2 x 8 over (row half b, column block k) of the [512, 32768] input, the block
  [256, 4096] of it and the block [4096, 64] of the second factor fetched at every point, the output block [256, 64]
  at row half b written back at the last k of each b. A scratch accumulator [256, 64] is carried between points:
  at k = 0 the body first stores zeros into it; at every point it stores accumulator + product of the two blocks,
  and then stores the accumulator, narrowed, over the output block.
  Stated at any float instance: the body's run in the two cases of k = 0 (the pieces its stores leave in the
  accumulator and in the output block found by the run), what both hold after each grid point (by recursion on the
  point: a point with k ≠ 0 starts from what the point before left in the accumulator), the invariant carrying the
  accumulator at those contents, the pipeline's proof data and the body obligation.
-/
import proofs.«139199_j20349555048715_2_alg».proof.Proof.Gen.Kernel.Launch
import proofs.«139199_j20349555048715_2_alg».proof.Proof.Gen.Kernel.Skeleton
import proofs.«139199_j20349555048715_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The branch on k = 0 -/

/-- The body's one conditional, from the grid coordinates: k = 0. -/
abbrev cond0 (i : grid0.Coords) : Prop := (Scalar.cmpi .ne (Scalar.extui (Scalar.cmpi .eq (BitVec.ofNat 32 (i 1).val) 0#32)) 0#32) = 1#1
/-- It holds at the points ≡ 0 (mod 8): the first column block of each row half. -/
theorem hcond0 : ∀ t : Fin cfg0.N, cond0 (grid0.coords t) ↔ t.val % 8 = 0 :=
  (by decide +kernel : ∀ t : Fin grid0.N, cond0 (grid0.coords t) ↔ t.val % 8 = 0)

/-! ## The staging buffers at a point, the accumulator -/

abbrev VO0 : View sig .tc .vmem S256x64 .bf16 := (Memref.whole cc0_stg2_0 : Memref sig .tc .vmem S256x64 .bf16).view
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x64 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S256x64 .f32 := Memref.whole cc0_scratch0
abbrev VS0 : View sig .tc .vmem S256x64 .f32 := scM0.view

/-- The scoped buffers of the other region, which this region neither reads nor writes. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant, conjunct by conjunct: the accumulator at some contents, the other region's scoped buffers, the generator register. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

/-! ## The body's run, case by case -/

set_option maxHeartbeats 1000000 in
/-- CASE k = 0. On whole staging buffers, the two inputs at their contents, the output block and the accumulator at anything,
    the body runs to the inputs as they were, the output block and the accumulator with the run's pieces written. -/
noncomputable def kernelRun0_A (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : cond0 i)
    (x0 : Vec F S256x4096 .f32) (x1 : Vec F S4096x64 .f32) :
    Σ' (L2 : List (View.Piece (Elt F) S256x64 .bf16)), { LS : List (View.Piece (Elt F) S256x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__z_kernel i arg2 harg2 arg3 harg3 arg4 harg4 arg5 harg5) K } := by
  refine ⟨?_, ?_, fun E K => ?run⟩
  case run =>
    simp only [cc0__z_kernel_eq_skeleton]; unfold cc0__z_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 1000000 in
/-- CASE k ≠ 0. As above, the accumulator handed in at the contents `xs` the point before left. -/
noncomputable def kernelRun0_B (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : ¬cond0 i)
    (x0 : Vec F S256x4096 .f32) (x1 : Vec F S4096x64 .f32) (xs : Vec F S256x64 .f32) :
    Σ' (L2 : List (View.Piece (Elt F) S256x64 .bf16)), { LS : List (View.Piece (Elt F) S256x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__z_kernel i arg2 harg2 arg3 harg3 arg4 harg4 arg5 harg5) K } := by
  refine ⟨?_, ?_, fun E K => ?run⟩
  case run =>
    simp only [cc0__z_kernel_eq_skeleton]; unfold cc0__z_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## The pieces cover their buffers; what they leave -/

theorem cover0_A (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : cond0 i) (x0 : Vec F S256x4096 .f32) (x1 : Vec F S4096x64 .f32) (y : S256x64.Idx) :
    ∃ pc ∈ (kernelRun0_A c i arg2 harg2 arg3 harg3 arg4 harg4 arg5 harg5 hc x0 x1).1, y ∈ pc.1.set :=
  View.cover_of_tiledL (kernelRun0_A c i arg2 harg2 arg3 harg3 arg4 harg4 arg5 harg5 hc x0 x1).1 S256x64.size (by sl_kernel_rfl) y
theorem scover0_A (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : cond0 i) (x0 : Vec F S256x4096 .f32) (x1 : Vec F S4096x64 .f32) (y : S256x64.Idx) :
    ∃ pc ∈ (kernelRun0_A c i arg2 harg2 arg3 harg3 arg4 harg4 arg5 harg5 hc x0 x1).2.1, y ∈ pc.1.set :=
  View.cover_of_tiledL (kernelRun0_A c i arg2 harg2 arg3 harg3 arg4 harg4 arg5 harg5 hc x0 x1).2.1 S256x64.size (by sl_kernel_rfl) y
theorem cover0_B (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : ¬cond0 i) (x0 : Vec F S256x4096 .f32) (x1 : Vec F S4096x64 .f32) (xs : Vec F S256x64 .f32) (y : S256x64.Idx) :
    ∃ pc ∈ (kernelRun0_B c i arg2 harg2 arg3 harg3 arg4 harg4 arg5 harg5 hc x0 x1 xs).1, y ∈ pc.1.set :=
  View.cover_of_tiledL (kernelRun0_B c i arg2 harg2 arg3 harg3 arg4 harg4 arg5 harg5 hc x0 x1 xs).1 S256x64.size (by sl_kernel_rfl) y
theorem scover0_B (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : ¬cond0 i) (x0 : Vec F S256x4096 .f32) (x1 : Vec F S4096x64 .f32) (xs : Vec F S256x64 .f32) (y : S256x64.Idx) :
    ∃ pc ∈ (kernelRun0_B c i arg2 harg2 arg3 harg3 arg4 harg4 arg5 harg5 hc x0 x1 xs).2.1, y ∈ pc.1.set :=
  View.cover_of_tiledL (kernelRun0_B c i arg2 harg2 arg3 harg3 arg4 harg4 arg5 harg5 hc x0 x1 xs).2.1 S256x64.size (by sl_kernel_rfl) y

/-- What case k = 0 leaves in the output block, and in the accumulator: its pieces read back. -/
def out0_A (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : cond0 i) (x0 : Vec F S256x4096 .f32) (x1 : Vec F S4096x64 .f32) : Vec F S256x64 .bf16 :=
  VO0.read (Elt F) (VO0.writes (Elt F) VO0.junk (kernelRun0_A c i arg2 harg2 arg3 harg3 arg4 harg4 arg5 harg5 hc x0 x1).1)
def sout0_A (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : cond0 i) (x0 : Vec F S256x4096 .f32) (x1 : Vec F S4096x64 .f32) : Vec F S256x64 .f32 :=
  VS0.read (Elt F) (VS0.writes (Elt F) VS0.junk (kernelRun0_A c i arg2 harg2 arg3 harg3 arg4 harg4 arg5 harg5 hc x0 x1).2.1)
/-- What case k ≠ 0 leaves in them. -/
def out0_B (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : ¬cond0 i) (x0 : Vec F S256x4096 .f32) (x1 : Vec F S4096x64 .f32) (xs : Vec F S256x64 .f32) : Vec F S256x64 .bf16 :=
  VO0.read (Elt F) (VO0.writes (Elt F) VO0.junk (kernelRun0_B c i arg2 harg2 arg3 harg3 arg4 harg4 arg5 harg5 hc x0 x1 xs).1)
def sout0_B (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : ¬cond0 i) (x0 : Vec F S256x4096 .f32) (x1 : Vec F S4096x64 .f32) (xs : Vec F S256x64 .f32) : Vec F S256x64 .f32 :=
  VS0.read (Elt F) (VS0.writes (Elt F) VS0.junk (kernelRun0_B c i arg2 harg2 arg3 harg3 arg4 harg4 arg5 harg5 hc x0 x1 xs).2.1)

/-! ## What the output block and the accumulator hold after each point -/

/-- After the body at position `n`: (the output block, the accumulator). A point with k = 0 runs from anything; any other from
    what the point before left in the accumulator. -/
def outsAt0 (c : Dev nD) : (n : ℕ) → n < cfg0.N → Vec F S256x64 .bf16 × Vec F S256x64 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
              sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn =>
    if h0 : (n + 1) % 8 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩),
       sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) :
    outsAt0 V c t.val t.isLt = (out0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant: the accumulator carried at what the point before left -/

def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ others0 (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ others0 (F := F) c) ∗ (∃ r, prngReg c r)) := by
  cases n with
  | zero => exact absurd rfl hz
  | succ n => rfl

/-! ## The proof data and the body obligation -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the inputs' buffers hold their blocks; the closed form says which case the point is in; the invariant
    hands the body the accumulator at what the point before left (at anything at the very first point) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [after0_0, after0_1, after0_2]
  have hN : t.val < 16 := lt_of_lt_of_eq t.isLt (show cfg0.N = 16 from N_0)
  by_cases h0 : t.val % 8 = 0
  · rw [outsAt0_A V c t h0]
    unfold out0_A sout0_A; (try dsimp only)
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [PhiS_castSucc V c t, PhiS_pos V c _ _ hz]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · rw [outsAt0_B V c t h0]
    unfold out0_B sout0_B; (try dsimp only)
    have hz : t.val ≠ 0 := fun h => h0 (by rw [h])
    rw [PhiS_castSucc V c t, PhiS_pos V c _ _ hz]
    iintro ⟨⟨⟨HS, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS, HR⟩, Hg⟩
  isplitl [HS HR]
  · isplitl [HS]; · iexists _; iexact HS
    iexact HR
  iexact Hg

end Region0

end Cert.Kernel.Run

end
-- ==== Proof.BitsYRegion.lean ====
/-
  The second region of the program: z [512, 64] held whole, one block of 4096 rows of U per grid point n (8 points),
  the output block [512, 4096] at column block n. At each point the body loads z and the block of U, forms the
  product contracting the 64-axis of both into a zero accumulator, and stores it over the whole output block.
  Stated at any float instance: what the output block holds after the body (the one store read back over the
  block), the body's triple, the pipeline's proof data with the inputs' buffers at their blocks, and the body
  obligation at every grid point. The region needs nothing beyond its staging buffers, so its invariant is the
  scoped rest and the generator register, untouched.
-/
import proofs.«139199_j20349555048715_2_alg».proof.Proof.Gen.Kernel.Launch
import proofs.«139199_j20349555048715_2_alg».proof.Proof.Gen.Kernel.Skeleton
import proofs.«139199_j20349555048715_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- z's staging buffer holds the whole of z at every point: it is fetched at the first point and its block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The block of U is fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rz1 : Rect S512x64 := Rect.unit (s := S512x64) ![0, 0] S512x64.size inb_S512x64_S512x64_0_0
abbrev ru1 : Rect S4096x64 := Rect.unit (s := S4096x64) ![0, 0] S4096x64.size inb_S4096x64_S4096x64_0_0
abbrev ry1 : Rect S512x4096 := Rect.unit (s := S512x4096) ![0, 0] S512x4096.size inb_S512x4096_S512x4096_0_0

/-- The output block after the body: its one store, of the product of the two loaded blocks, read back. -/
def out1 (x0 : Vec F S512x64 .bf16) (x1 : Vec F S4096x64 .f32) : Vec F S512x4096 .f32 :=
  View.canon [⟨ry1, k1_pay1 (View.ld x0 rz1) (View.ld x1 ru1)⟩]

theorem cover1 (p0 : Vec F S512x4096 .f32) (y : S512x4096.Idx) :
    ∃ pc ∈ ([⟨ry1, p0⟩] : List (View.Piece (Elt F) S512x4096 .f32)), y ∈ pc.1.set :=
  View.cover_of_tiled [⟨ry1, p0⟩] S512x4096.size (by rfl) y

set_option maxHeartbeats 1000000 in
/-- The body on whole staging buffers: the two inputs come back as they were, the output block holds `out1` of them. -/
theorem sound_kernel1 (c : Dev nD) (E : Set ℕ) (i : grid1.Coords) (arg1 : Memref sig .tc .vmem S512x64 .bf16) (harg1 : arg1.IsWhole) (arg2 : Memref sig .tc .vmem S4096x64 .f32) (harg2 : arg2.IsWhole) (arg3 : Memref sig .tc .vmem S512x4096 .f32) (harg3 : arg3.IsWhole)
    (x0 : Vec F S512x64 .bf16) (x1 : Vec F S4096x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__y_kernel i arg1 harg1 arg2 harg2 arg3 harg3) K := by
  simp only [cc1__y_kernel_eq_skeleton]; unfold cc1__y_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of the second pipeline on core `c`, at the contents `V` the region is entered with. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.Kernel.Run

end
-- ==== Proof.BitsRun.lean ====
/-
  The whole run of the program: its two regions in order. The buffers' contents at each boundary are a fold from the
  launch memory: a region leaves each of its arrays at what its write-backs leave and every other buffer as entered.
  Each region is entered from "every unscoped buffer at the boundary's contents, the generator register at some state,
  nothing owed" and left in the same form, so the two chain; the first region's invariant is entered from the class's
  and gives it back, the accumulator's named contents forgotten at its exit. At the end every unscoped buffer is read
  against the final state: the result array holds what the second region's write-backs leave, and each argument array,
  which no region writes, holds its launch contents.
-/
import proofs.«139199_j20349555048715_2_alg».proof.Proof.BitsZRegion
import proofs.«139199_j20349555048715_2_alg».proof.Proof.BitsYRegion

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## No region writes an argument array -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (V1 m ρ) c).arrAt_in 1 rfl _).trans (A_eq1 (V1 m ρ) c 1))
    _ = W0 m ρ c (Proc.devRef .tc main_arg1) := W1_of_ne m ρ c main_arg1 (by decide)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- The first region: entered from every unscoped buffer at the launch contents, left with its arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    refine (show _ ⊢ (Pipeline.ΦA spec0 c : sProp 𝕄) from ?_).trans (hin0 (V0 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V0 m ρ) c).Φ (Fin.last cfg0.N) from rfl]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from what the first leaves, left at the contents the launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting; the result array
    ends at what the second region's write-backs leave, and every argument array ends as launched. -/
theorem run_all : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

end Cert.Kernel.Run

end
-- ==== Proof.IdealZRegion.lean ====
/-
  The first region of the program: grid 2 x 8 over (row half b, column block k) of the [512, 32768] input, the block
  [256, 4096] of it and the block [4096, 64] of the second factor fetched at every point, the output block [256, 64]
  at row half b written back at the last k of each b. A scratch accumulator [256, 64] is carried between points:
  at k = 0 the body first stores zeros into it; at every point it stores accumulator + product of the two blocks,
  and then stores the accumulator, narrowed, over the output block.
  Stated at any float instance: the body's run in the two cases of k = 0 (the pieces its stores leave in the
  accumulator and in the output block found by the run), what both hold after each grid point (by recursion on the
  point: a point with k ≠ 0 starts from what the point before left in the accumulator), the invariant carrying the
  accumulator at those contents, the pipeline's proof data and the body obligation.
-/
import proofs.«139199_j20349555048715_2_alg».proof.Proof.Gen.KernelIdeal.Launch
import proofs.«139199_j20349555048715_2_alg».proof.Proof.Gen.KernelIdeal.Skeleton
import proofs.«139199_j20349555048715_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The branch on k = 0 -/

/-- The body's one conditional, from the grid coordinates: k = 0. -/
abbrev cond0 (i : grid0.Coords) : Prop := (Scalar.cmpi .ne (Scalar.extui (Scalar.cmpi .eq (BitVec.ofNat 32 (i 1).val) 0#32)) 0#32) = 1#1
/-- It holds at the points ≡ 0 (mod 8): the first column block of each row half. -/
theorem hcond0 : ∀ t : Fin cfg0.N, cond0 (grid0.coords t) ↔ t.val % 8 = 0 :=
  (by decide +kernel : ∀ t : Fin grid0.N, cond0 (grid0.coords t) ↔ t.val % 8 = 0)

/-! ## The staging buffers at a point, the accumulator -/

abbrev VO0 : View sig .tc .vmem S256x64 .bf16 := (Memref.whole cc0_stg2_0 : Memref sig .tc .vmem S256x64 .bf16).view
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x64 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S256x64 .f32 := Memref.whole cc0_scratch0
abbrev VS0 : View sig .tc .vmem S256x64 .f32 := scM0.view

/-- The scoped buffers of the other region, which this region neither reads nor writes. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant, conjunct by conjunct: the accumulator at some contents, the other region's scoped buffers, the generator register. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

/-! ## The body's run, case by case -/

set_option maxHeartbeats 1000000 in
/-- CASE k = 0. On whole staging buffers, the two inputs at their contents, the output block and the accumulator at anything,
    the body runs to the inputs as they were, the output block and the accumulator with the run's pieces written. -/
noncomputable def kernelRun0_A (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : cond0 i)
    (x0 : Vec F S256x4096 .f32) (x1 : Vec F S4096x64 .f32) :
    Σ' (L2 : List (View.Piece (Elt F) S256x64 .bf16)), { LS : List (View.Piece (Elt F) S256x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__z_kernel i arg2 harg2 arg3 harg3 arg4 harg4 arg5 harg5) K } := by
  refine ⟨?_, ?_, fun E K => ?run⟩
  case run =>
    simp only [cc0__z_kernel_eq_skeleton]; unfold cc0__z_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 1000000 in
/-- CASE k ≠ 0. As above, the accumulator handed in at the contents `xs` the point before left. -/
noncomputable def kernelRun0_B (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : ¬cond0 i)
    (x0 : Vec F S256x4096 .f32) (x1 : Vec F S4096x64 .f32) (xs : Vec F S256x64 .f32) :
    Σ' (L2 : List (View.Piece (Elt F) S256x64 .bf16)), { LS : List (View.Piece (Elt F) S256x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__z_kernel i arg2 harg2 arg3 harg3 arg4 harg4 arg5 harg5) K } := by
  refine ⟨?_, ?_, fun E K => ?run⟩
  case run =>
    simp only [cc0__z_kernel_eq_skeleton]; unfold cc0__z_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## The pieces cover their buffers; what they leave -/

theorem cover0_A (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : cond0 i) (x0 : Vec F S256x4096 .f32) (x1 : Vec F S4096x64 .f32) (y : S256x64.Idx) :
    ∃ pc ∈ (kernelRun0_A c i arg2 harg2 arg3 harg3 arg4 harg4 arg5 harg5 hc x0 x1).1, y ∈ pc.1.set :=
  View.cover_of_tiledL (kernelRun0_A c i arg2 harg2 arg3 harg3 arg4 harg4 arg5 harg5 hc x0 x1).1 S256x64.size (by sl_kernel_rfl) y
theorem scover0_A (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : cond0 i) (x0 : Vec F S256x4096 .f32) (x1 : Vec F S4096x64 .f32) (y : S256x64.Idx) :
    ∃ pc ∈ (kernelRun0_A c i arg2 harg2 arg3 harg3 arg4 harg4 arg5 harg5 hc x0 x1).2.1, y ∈ pc.1.set :=
  View.cover_of_tiledL (kernelRun0_A c i arg2 harg2 arg3 harg3 arg4 harg4 arg5 harg5 hc x0 x1).2.1 S256x64.size (by sl_kernel_rfl) y
theorem cover0_B (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : ¬cond0 i) (x0 : Vec F S256x4096 .f32) (x1 : Vec F S4096x64 .f32) (xs : Vec F S256x64 .f32) (y : S256x64.Idx) :
    ∃ pc ∈ (kernelRun0_B c i arg2 harg2 arg3 harg3 arg4 harg4 arg5 harg5 hc x0 x1 xs).1, y ∈ pc.1.set :=
  View.cover_of_tiledL (kernelRun0_B c i arg2 harg2 arg3 harg3 arg4 harg4 arg5 harg5 hc x0 x1 xs).1 S256x64.size (by sl_kernel_rfl) y
theorem scover0_B (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : ¬cond0 i) (x0 : Vec F S256x4096 .f32) (x1 : Vec F S4096x64 .f32) (xs : Vec F S256x64 .f32) (y : S256x64.Idx) :
    ∃ pc ∈ (kernelRun0_B c i arg2 harg2 arg3 harg3 arg4 harg4 arg5 harg5 hc x0 x1 xs).2.1, y ∈ pc.1.set :=
  View.cover_of_tiledL (kernelRun0_B c i arg2 harg2 arg3 harg3 arg4 harg4 arg5 harg5 hc x0 x1 xs).2.1 S256x64.size (by sl_kernel_rfl) y

/-- What case k = 0 leaves in the output block, and in the accumulator: its pieces read back. -/
def out0_A (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : cond0 i) (x0 : Vec F S256x4096 .f32) (x1 : Vec F S4096x64 .f32) : Vec F S256x64 .bf16 :=
  VO0.read (Elt F) (VO0.writes (Elt F) VO0.junk (kernelRun0_A c i arg2 harg2 arg3 harg3 arg4 harg4 arg5 harg5 hc x0 x1).1)
def sout0_A (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : cond0 i) (x0 : Vec F S256x4096 .f32) (x1 : Vec F S4096x64 .f32) : Vec F S256x64 .f32 :=
  VS0.read (Elt F) (VS0.writes (Elt F) VS0.junk (kernelRun0_A c i arg2 harg2 arg3 harg3 arg4 harg4 arg5 harg5 hc x0 x1).2.1)
/-- What case k ≠ 0 leaves in them. -/
def out0_B (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : ¬cond0 i) (x0 : Vec F S256x4096 .f32) (x1 : Vec F S4096x64 .f32) (xs : Vec F S256x64 .f32) : Vec F S256x64 .bf16 :=
  VO0.read (Elt F) (VO0.writes (Elt F) VO0.junk (kernelRun0_B c i arg2 harg2 arg3 harg3 arg4 harg4 arg5 harg5 hc x0 x1 xs).1)
def sout0_B (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole) (hc : ¬cond0 i) (x0 : Vec F S256x4096 .f32) (x1 : Vec F S4096x64 .f32) (xs : Vec F S256x64 .f32) : Vec F S256x64 .f32 :=
  VS0.read (Elt F) (VS0.writes (Elt F) VS0.junk (kernelRun0_B c i arg2 harg2 arg3 harg3 arg4 harg4 arg5 harg5 hc x0 x1 xs).2.1)

/-! ## What the output block and the accumulator hold after each point -/

/-- After the body at position `n`: (the output block, the accumulator). A point with k = 0 runs from anything; any other from
    what the point before left in the accumulator. -/
def outsAt0 (c : Dev nD) : (n : ℕ) → n < cfg0.N → Vec F S256x64 .bf16 × Vec F S256x64 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
              sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn =>
    if h0 : (n + 1) % 8 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩),
       sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) :
    outsAt0 V c t.val t.isLt = (out0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant: the accumulator carried at what the point before left -/

def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ others0 (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ others0 (F := F) c) ∗ (∃ r, prngReg c r)) := by
  cases n with
  | zero => exact absurd rfl hz
  | succ n => rfl

/-! ## The proof data and the body obligation -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the inputs' buffers hold their blocks; the closed form says which case the point is in; the invariant
    hands the body the accumulator at what the point before left (at anything at the very first point) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [after0_0, after0_1, after0_2]
  have hN : t.val < 16 := lt_of_lt_of_eq t.isLt (show cfg0.N = 16 from N_0)
  by_cases h0 : t.val % 8 = 0
  · rw [outsAt0_A V c t h0]
    unfold out0_A sout0_A; (try dsimp only)
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [PhiS_castSucc V c t, PhiS_pos V c _ _ hz]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · rw [outsAt0_B V c t h0]
    unfold out0_B sout0_B; (try dsimp only)
    have hz : t.val ≠ 0 := fun h => h0 (by rw [h])
    rw [PhiS_castSucc V c t, PhiS_pos V c _ _ hz]
    iintro ⟨⟨⟨HS, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS, HR⟩, Hg⟩
  isplitl [HS HR]
  · isplitl [HS]; · iexists _; iexact HS
    iexact HR
  iexact Hg

end Region0

end Cert.KernelIdeal.Run

end
-- ==== Proof.IdealYRegion.lean ====
/-
  The second region of the program: z [512, 64] held whole, one block of 4096 rows of U per grid point n (8 points),
  the output block [512, 4096] at column block n. At each point the body loads z and the block of U, forms the
  product contracting the 64-axis of both into a zero accumulator, and stores it over the whole output block.
  Stated at any float instance: what the output block holds after the body (the one store read back over the
  block), the body's triple, the pipeline's proof data with the inputs' buffers at their blocks, and the body
  obligation at every grid point. The region needs nothing beyond its staging buffers, so its invariant is the
  scoped rest and the generator register, untouched.
-/
import proofs.«139199_j20349555048715_2_alg».proof.Proof.Gen.KernelIdeal.Launch
import proofs.«139199_j20349555048715_2_alg».proof.Proof.Gen.KernelIdeal.Skeleton
import proofs.«139199_j20349555048715_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- z's staging buffer holds the whole of z at every point: it is fetched at the first point and its block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The block of U is fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rz1 : Rect S512x64 := Rect.unit (s := S512x64) ![0, 0] S512x64.size inb_S512x64_S512x64_0_0
abbrev ru1 : Rect S4096x64 := Rect.unit (s := S4096x64) ![0, 0] S4096x64.size inb_S4096x64_S4096x64_0_0
abbrev ry1 : Rect S512x4096 := Rect.unit (s := S512x4096) ![0, 0] S512x4096.size inb_S512x4096_S512x4096_0_0

/-- The output block after the body: its one store, of the product of the two loaded blocks, read back. -/
def out1 (x0 : Vec F S512x64 .bf16) (x1 : Vec F S4096x64 .f32) : Vec F S512x4096 .f32 :=
  View.canon [⟨ry1, k1_pay1 (View.ld x0 rz1) (View.ld x1 ru1)⟩]

theorem cover1 (p0 : Vec F S512x4096 .f32) (y : S512x4096.Idx) :
    ∃ pc ∈ ([⟨ry1, p0⟩] : List (View.Piece (Elt F) S512x4096 .f32)), y ∈ pc.1.set :=
  View.cover_of_tiled [⟨ry1, p0⟩] S512x4096.size (by rfl) y

set_option maxHeartbeats 1000000 in
/-- The body on whole staging buffers: the two inputs come back as they were, the output block holds `out1` of them. -/
theorem sound_kernel1 (c : Dev nD) (E : Set ℕ) (i : grid1.Coords) (arg1 : Memref sig .tc .vmem S512x64 .bf16) (harg1 : arg1.IsWhole) (arg2 : Memref sig .tc .vmem S4096x64 .f32) (harg2 : arg2.IsWhole) (arg3 : Memref sig .tc .vmem S512x4096 .f32) (harg3 : arg3.IsWhole)
    (x0 : Vec F S512x64 .bf16) (x1 : Vec F S4096x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__y_kernel i arg1 harg1 arg2 harg2 arg3 harg3) K := by
  simp only [cc1__y_kernel_eq_skeleton]; unfold cc1__y_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of the second pipeline on core `c`, at the contents `V` the region is entered with. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.KernelIdeal.Run

end
-- ==== Proof.IdealRun.lean ====
/-
  The whole run of the program: its two regions in order. The buffers' contents at each boundary are a fold from the
  launch memory: a region leaves each of its arrays at what its write-backs leave and every other buffer as entered.
  Each region is entered from "every unscoped buffer at the boundary's contents, the generator register at some state,
  nothing owed" and left in the same form, so the two chain; the first region's invariant is entered from the class's
  and gives it back, the accumulator's named contents forgotten at its exit. At the end every unscoped buffer is read
  against the final state: the result array holds what the second region's write-backs leave, and each argument array,
  which no region writes, holds its launch contents.
-/
import proofs.«139199_j20349555048715_2_alg».proof.Proof.IdealZRegion
import proofs.«139199_j20349555048715_2_alg».proof.Proof.IdealYRegion

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## No region writes an argument array -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (V1 m ρ) c).arrAt_in 1 rfl _).trans (A_eq1 (V1 m ρ) c 1))
    _ = W0 m ρ c (Proc.devRef .tc main_arg1) := W1_of_ne m ρ c main_arg1 (by decide)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- The first region: entered from every unscoped buffer at the launch contents, left with its arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    refine (show _ ⊢ (Pipeline.ΦA spec0 c : sProp 𝕄) from ?_).trans (hin0 (V0 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V0 m ρ) c).Φ (Fin.last cfg0.N) from rfl]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from what the first leaves, left at the contents the launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting; the result array
    ends at what the second region's write-backs leave, and every argument array ends as launched. -/
theorem run_all : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

end Cert.KernelIdeal.Run

end
-- ==== Proof.IdealPieces.lean ====
/-
  What the first region's stores leave, named: the pieces the body's run found in the accumulator and in the output
  block, read back, are the body's own arithmetic of its loaded blocks. Every load and store of the body goes through
  the whole buffer, so a load reads the contents, a last store leaves its payload, and a load after a store reads that
  store's payload. At k ≠ 0 the accumulator ends at (what the point before left) + (block product); at k = 0 at
  zero + (block product); the output block at the accumulator's new contents, narrowed.
-/
import proofs.«139199_j20349555048715_2_alg».proof.Proof.IdealZRegion
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A load through the whole-buffer rectangle of what a LAST store through it left, whatever was stored before, reads that store's payload. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

section Pieces
variable (c : Dev nD) (i : grid0.Coords) (arg2 : Memref sig .tc .vmem S256x4096 .f32) (harg2 : arg2.IsWhole) (arg3 : Memref sig .tc .vmem S4096x64 .f32) (harg3 : arg3.IsWhole) (arg4 : Memref sig .tc .vmem S256x64 .bf16) (harg4 : arg4.IsWhole) (arg5 : Memref sig .tc .vmem S256x64 .f32) (harg5 : arg5.IsWhole)
  (x0 : Vec F S256x4096 .f32) (x1 : Vec F S4096x64 .f32)

/-- At k ≠ 0 the accumulator ends at (what it held) + (product of the two blocks). -/
theorem sout0_B_eq (hc : ¬cond0 i) (xs : Vec F S256x64 .f32) :
    sout0_B c i arg2 harg2 arg3 harg3 arg4 harg4 arg5 harg5 hc x0 x1 xs = k0_pay2 x0 x1 xs := by
  unfold sout0_B
  rw [View.read_writes_eq_canon _ _ _ (scover0_B c i arg2 harg2 arg3 harg3 arg4 harg4 arg5 harg5 hc x0 x1 xs)]
  unfold kernelRun0_B
  dsimp only
  sl_unfold_words
  rw [View.canon_unit_zero hz2]
  simp only [View.readAt_eq_ld, Memref.IsWhole.read_unread, View.ld_unit_zero (S := S256x4096) hz2, View.ld_unit_zero (S := S4096x64) hz2, View.ld_unit_zero (S := S256x64) hz2]

/-- At k = 0 it ends at zero + (product of the two blocks). -/
theorem sout0_A_eq (hc : cond0 i) :
    sout0_A c i arg2 harg2 arg3 harg3 arg4 harg4 arg5 harg5 hc x0 x1 = k0_pay2 x0 x1 k0_pay1 := by
  unfold sout0_A
  rw [View.read_writes_eq_canon _ _ _ (scover0_A c i arg2 harg2 arg3 harg3 arg4 harg4 arg5 harg5 hc x0 x1)]
  unfold kernelRun0_A
  dsimp only
  sl_unfold_words
  rw [View.canon_cons_unit_zero hz2, View.readCov_unit_zero _ hz2]
  simp only [View.readAt_eq_ld, Memref.IsWhole.read_unread, View.ld_unit_zero (S := S256x4096) hz2, View.ld_unit_zero (S := S4096x64) hz2, View.ld_unit_zero (S := S256x64) hz2]

/-- The output block ends at the accumulator's new contents, narrowed. -/
theorem out0_A_eq (hc : cond0 i) :
    out0_A c i arg2 harg2 arg3 harg3 arg4 harg4 arg5 harg5 hc x0 x1 = k0_pay3 (k0_pay2 x0 x1 k0_pay1) := by
  unfold out0_A
  rw [View.read_writes_eq_canon _ _ _ (cover0_A c i arg2 harg2 arg3 harg3 arg4 harg4 arg5 harg5 hc x0 x1)]
  unfold kernelRun0_A
  dsimp only
  sl_unfold_words
  rw [View.canon_unit_zero (S := S256x64) hz2, readCov_cons_whole _ hz2, View.readCov_unit_zero _ hz2]
  simp only [View.readAt_eq_ld, Memref.IsWhole.read_unread, View.ld_unit_zero (S := S256x4096) hz2, View.ld_unit_zero (S := S4096x64) hz2, View.ld_unit_zero (S := S256x64) hz2]

theorem out0_B_eq (hc : ¬cond0 i) (xs : Vec F S256x64 .f32) :
    out0_B c i arg2 harg2 arg3 harg3 arg4 harg4 arg5 harg5 hc x0 x1 xs = k0_pay3 (k0_pay2 x0 x1 xs) := by
  unfold out0_B
  rw [View.read_writes_eq_canon _ _ _ (cover0_B c i arg2 harg2 arg3 harg3 arg4 harg4 arg5 harg5 hc x0 x1 xs)]
  unfold kernelRun0_B
  dsimp only
  sl_unfold_words
  rw [View.canon_unit_zero (S := S256x64) hz2, View.readCov_unit_zero _ hz2]
  simp only [View.readAt_eq_ld, Memref.IsWhole.read_unread, View.ld_unit_zero (S := S256x4096) hz2, View.ld_unit_zero (S := S4096x64) hz2, View.ld_unit_zero (S := S256x64) hz2]

end Pieces

end Cert.KernelIdeal.Run

end
-- ==== Proof.Payloads.lean ====
/- The kernel's payloads read at an index, at the ideal values.

Over the extended reals, where a format change is the identity and a matrix product has no rounding:

* the first region's zero fill is `0` at every index;
* its accumulation step at `(p, q)` is the accumulator there plus `∑ k, x (p, k) * v (k, q)`
  over the block's 4096 contraction positions (a product into a zero accumulator, then one sum);
* its output conversion is the identity;
* the second region's block at `(p, n)` is `∑ r, z (p, r) * u (n, r)` over the 64 positions
  of the second axis of BOTH operands (the right operand is read transposed).
-/
import proofs.«139199_j20349555048715_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payloads

open Cert.KernelIdeal Cert.KernelIdeal.Gen Idealize.ShloMosaic

/-- The first region's dimension numbers: rows × contraction times contraction × columns. -/
abbrev D0 : DotDims S256x4096 S4096x64 S256x64 := dot_S256x4096_S4096x64_S256x64_1_0_0_1_n_n
/-- The second region's: the second axis of both operands is contracted. -/
abbrev D1 : DotDims S512x64 S4096x64 S512x4096 := dot_S512x64_S4096x64_S512x4096_1_1_0_0_n_n

/-! ## The operand indices of the two products, by coordinates -/

theorem D0_lhs_0 (i : S256x64.Idx) (q : D0.contr.Idx) : (D0.lhsIdx i q 0).val = (i 0).val := by
  unfold DotDims.lhsIdx
  rw [dif_neg (show ¬(0 : Fin S256x4096.rank) ∈ D0.lhsBatch by decide),
    dif_pos (show (0 : Fin S256x4096.rank) ∈ D0.lhsNonContracting by decide)]
  rfl
theorem D0_lhs_1 (i : S256x64.Idx) (q : D0.contr.Idx) : (D0.lhsIdx i q 1).val = (q ⟨0, by decide⟩).val :=
  D0.lhsIdx_val_of_single rfl i q
theorem D0_rhs_0 (i : S256x64.Idx) (q : D0.contr.Idx) : (D0.rhsIdx i q 0).val = (q ⟨0, by decide⟩).val :=
  D0.rhsIdx_val_of_single rfl i q
theorem D0_rhs_1 (i : S256x64.Idx) (q : D0.contr.Idx) : (D0.rhsIdx i q 1).val = (i 1).val := by
  unfold DotDims.rhsIdx
  rw [dif_neg (show ¬(1 : Fin S4096x64.rank) ∈ D0.rhsBatch by decide),
    dif_pos (show (1 : Fin S4096x64.rank) ∈ D0.rhsNonContracting by decide)]
  rfl

theorem D1_lhs_0 (i : S512x4096.Idx) (q : D1.contr.Idx) : (D1.lhsIdx i q 0).val = (i 0).val := by
  unfold DotDims.lhsIdx
  rw [dif_neg (show ¬(0 : Fin S512x64.rank) ∈ D1.lhsBatch by decide),
    dif_pos (show (0 : Fin S512x64.rank) ∈ D1.lhsNonContracting by decide)]
  rfl
theorem D1_lhs_1 (i : S512x4096.Idx) (q : D1.contr.Idx) : (D1.lhsIdx i q 1).val = (q ⟨0, by decide⟩).val :=
  D1.lhsIdx_val_of_single rfl i q
theorem D1_rhs_0 (i : S512x4096.Idx) (q : D1.contr.Idx) : (D1.rhsIdx i q 0).val = (i 1).val := by
  unfold DotDims.rhsIdx
  rw [dif_neg (show ¬(0 : Fin S4096x64.rank) ∈ D1.rhsBatch by decide),
    dif_pos (show (0 : Fin S4096x64.rank) ∈ D1.rhsNonContracting by decide)]
  rfl
theorem D1_rhs_1 (i : S512x4096.Idx) (q : D1.contr.Idx) : (D1.rhsIdx i q 1).val = (q ⟨0, by decide⟩).val :=
  D1.rhsIdx_val_of_single rfl i q

/-! ## The payloads -/

/-- The zero fill is `0` everywhere. -/
theorem pay1_apply (j : S256x64.Idx) : k0_pay1 (F := Ideal) j = 0 := by
  unfold k0_pay1
  rw [shapeCast_self]
  exact Ideal.ofBits_zero_f32

/-- The accumulation step at `(p, q)`: the accumulator there plus the block's partial product. -/
theorem pay2_apply (x : Vec Ideal S256x4096 .f32) (v : Vec Ideal S4096x64 .f32) (a : Vec Ideal S256x64 .f32)
    (p : Fin 256) (q : Fin 64) :
    k0_pay2 x v a (ValueIdx.ix2 p q)
      = a (ValueIdx.ix2 p q) + ∑ k : Fin 4096, x (ValueIdx.ix2 p k) * v (ValueIdx.ix2 k q) := by
  unfold k0_pay2
  rw [shapeCast_self]
  refine congrArg (a (ValueIdx.ix2 p q) + ·) ?_
  simp only [matmul]
  refine (Ideal.matmul_constant_zero_apply D0 none _ _ (ValueIdx.ix2 p q)).trans ?_
  rw [← Equiv.sum_comp (ValueIdx.contrEquiv1 D0 4096 rfl rfl).symm]
  refine Finset.sum_congr rfl fun k _ => ?_
  have hk := ValueIdx.contrEquiv1_symm_val D0 4096 rfl rfl k
  have el : D0.lhsIdx (ValueIdx.ix2 p q) ((ValueIdx.contrEquiv1 D0 4096 rfl rfl).symm k) = ValueIdx.ix2 p k :=
    funext fun b => Fin.ext (by
      match b with
      | ⟨0, _⟩ => exact D0_lhs_0 _ _
      | ⟨1, _⟩ => exact (D0_lhs_1 _ _).trans hk)
  have er : D0.rhsIdx (ValueIdx.ix2 p q) ((ValueIdx.contrEquiv1 D0 4096 rfl rfl).symm k) = ValueIdx.ix2 k q :=
    funext fun b => Fin.ext (by
      match b with
      | ⟨0, _⟩ => exact (D0_rhs_0 _ _).trans hk
      | ⟨1, _⟩ => exact D0_rhs_1 _ _)
  rw [el, er]
  rfl

/-- The output conversion is the identity. -/
theorem pay3_apply (a : Vec Ideal S256x64 .f32) (j : S256x64.Idx) : k0_pay3 a j = a j := rfl

/-- The second region's block at `(p, n)`: the product contracting the second axis of both operands. -/
theorem ypay_apply (z : Vec Ideal S512x64 .bf16) (u : Vec Ideal S4096x64 .f32) (p : Fin 512) (n : Fin 4096) :
    k1_pay1 z u (ValueIdx.ix2 p n) = ∑ r : Fin 64, z (ValueIdx.ix2 p r) * u (ValueIdx.ix2 n r) := by
  unfold k1_pay1
  rw [shapeCast_self]
  simp only [matmul]
  refine (Ideal.matmul_constant_zero_apply D1 none _ _ (ValueIdx.ix2 p n)).trans ?_
  rw [← Equiv.sum_comp (ValueIdx.contrEquiv1 D1 64 rfl rfl).symm]
  refine Finset.sum_congr rfl fun r _ => ?_
  have hr := ValueIdx.contrEquiv1_symm_val D1 64 rfl rfl r
  have el : D1.lhsIdx (ValueIdx.ix2 p n) ((ValueIdx.contrEquiv1 D1 64 rfl rfl).symm r) = ValueIdx.ix2 p r :=
    funext fun b => Fin.ext (by
      match b with
      | ⟨0, _⟩ => exact D1_lhs_0 _ _
      | ⟨1, _⟩ => exact (D1_lhs_1 _ _).trans hr)
  have er : D1.rhsIdx (ValueIdx.ix2 p n) ((ValueIdx.contrEquiv1 D1 64 rfl rfl).symm r) = ValueIdx.ix2 n r :=
    funext fun b => Fin.ext (by
      match b with
      | ⟨0, _⟩ => exact D1_rhs_0 _ _
      | ⟨1, _⟩ => exact (D1_rhs_1 _ _).trans hr)
  rw [el, er]
  rfl

end Cert.KernelIdeal.Payloads

end
-- ==== Proof.Spec.lean ====
/- The specification: two matrix products over the extended reals.

   For spikes `s : [512, 32768]`, `u : [32768, 64]` and `v : [32768, 64]`:
     `Gz s v (b, r) = ∑ k, s (b, k) * v (k, r)`        (the projection, `s · v`),
     `Gy z u (b, n) = ∑ r, z (b, r) * u (n, r)`        (the reconstruction, `z · uᵀ`),
     `G s u v = Gy (Gz s v) u`.
   Then two facts about finite sums in a commutative additive monoid: a sum over 32768 positions
   is the sum over 8 blocks of the sums over each block's 4096 positions, and a sum over 8 terms
   is reached by adding the terms one at a time from the first. -/
import Idealize.ShloMosaic.PureOps.Ideal
import Idealize.ShloMosaic.Lib.ValueIdx
import Mathlib.Algebra.BigOperators.Fin
import Mathlib.Logic.Equiv.Fin.Basic

noncomputable section

open scoped BigOperators

namespace Cert.Spec

open Idealize.ShloMosaic

/-- The projection: entry `(b, r)` is `∑ k, s (b, k) * v (k, r)`. -/
def Gz (s : (⟨2, ![512, 32768]⟩ : Shape).Idx → EReal) (v : (⟨2, ![32768, 64]⟩ : Shape).Idx → EReal) :
    (⟨2, ![512, 64]⟩ : Shape).Idx → EReal :=
  fun i => ∑ k : Fin 32768, s (ValueIdx.ix2 (i 0) k) * v (ValueIdx.ix2 k (i 1))

/-- The reconstruction: entry `(b, n)` is `∑ r, z (b, r) * u (n, r)`. -/
def Gy (z : (⟨2, ![512, 64]⟩ : Shape).Idx → EReal) (u : (⟨2, ![32768, 64]⟩ : Shape).Idx → EReal) :
    (⟨2, ![512, 32768]⟩ : Shape).Idx → EReal :=
  fun i => ∑ r : Fin 64, z (ValueIdx.ix2 (i 0) r) * u (ValueIdx.ix2 (i 1) r)

/-- The whole computation: project, then reconstruct. -/
def G (s : (⟨2, ![512, 32768]⟩ : Shape).Idx → EReal) (u v : (⟨2, ![32768, 64]⟩ : Shape).Idx → EReal) :
    (⟨2, ![512, 32768]⟩ : Shape).Idx → EReal :=
  Gy (Gz s v) u

theorem Gz_apply (s : (⟨2, ![512, 32768]⟩ : Shape).Idx → EReal) (v : (⟨2, ![32768, 64]⟩ : Shape).Idx → EReal)
    (b : Fin 512) (r : Fin 64) :
    Gz s v (ValueIdx.ix2 b r) = ∑ k : Fin 32768, s (ValueIdx.ix2 b k) * v (ValueIdx.ix2 k r) := rfl

theorem Gy_apply (z : (⟨2, ![512, 64]⟩ : Shape).Idx → EReal) (u : (⟨2, ![32768, 64]⟩ : Shape).Idx → EReal)
    (b : Fin 512) (n : Fin 32768) :
    Gy z u (ValueIdx.ix2 b n) = ∑ r : Fin 64, z (ValueIdx.ix2 b r) * u (ValueIdx.ix2 n r) := rfl

/-! ## A sum over `m * n` positions by blocks -/

/-- Position `j * n + i` of block `j` is below `m * n`. -/
theorem block_pos_lt {m n : ℕ} (j : Fin m) (i : Fin n) : j.val * n + i.val < m * n :=
  calc j.val * n + i.val < j.val * n + n := Nat.add_lt_add_left i.isLt _
    _ = (j.val + 1) * n := (Nat.succ_mul _ _).symm
    _ ≤ m * n := Nat.mul_le_mul_right n j.isLt

/-- In a commutative additive monoid a sum over `m * n` positions is the sum over the `m` blocks of
    the sums over each block's `n` positions. -/
theorem sum_blocks_gen {M : Type*} [AddCommMonoid M] (m n : ℕ) (f : Fin (m * n) → M) :
    ∑ k : Fin (m * n), f k = ∑ j : Fin m, ∑ i : Fin n, f ⟨j.val * n + i.val, block_pos_lt j i⟩ := by
  rw [← Equiv.sum_comp (finProdFinEquiv (m := m) (n := n)) f, Fintype.sum_prod_type]
  refine Finset.sum_congr rfl fun j _ => Finset.sum_congr rfl fun i _ => congrArg f (Fin.ext ?_)
  show i.val + n * j.val = j.val * n + i.val
  rw [Nat.mul_comm, Nat.add_comm]

/-- The contraction over 32768 positions, by its 8 blocks of 4096. -/
theorem sum_blocks (f : Fin 32768 → EReal) :
    ∑ k : Fin 32768, f k
      = ∑ j : Fin 8, ∑ i : Fin 4096, f ⟨j.val * 4096 + i.val, block_pos_lt (m := 8) (n := 4096) j i⟩ :=
  sum_blocks_gen 8 4096 f

/-! ## A sum of 8 terms, one term at a time -/

/-- The running sum: the first term, then one more term at each step (nothing past the eighth). -/
def partialSum (f : Fin 8 → EReal) : ℕ → EReal
  | 0 => f ⟨0, by omega⟩
  | n + 1 => partialSum f n + (if h : n + 1 < 8 then f ⟨n + 1, h⟩ else 0)

theorem partialSum_zero (f : Fin 8 → EReal) : partialSum f 0 = f ⟨0, by omega⟩ := rfl

theorem partialSum_succ (f : Fin 8 → EReal) (n : ℕ) (h : n + 1 < 8) :
    partialSum f (n + 1) = partialSum f n + f ⟨n + 1, h⟩ := by
  show partialSum f n + (if h : n + 1 < 8 then f ⟨n + 1, h⟩ else 0) = _
  rw [dif_pos h]

/-- After the eighth term the running sum is the whole sum. -/
theorem partial_seven (f : Fin 8 → EReal) : partialSum f 7 = ∑ j : Fin 8, f j := by
  rw [Fin.sum_univ_eight]
  rw [partialSum_succ f 6 (by omega), partialSum_succ f 5 (by omega), partialSum_succ f 4 (by omega),
    partialSum_succ f 3 (by omega), partialSum_succ f 2 (by omega), partialSum_succ f 1 (by omega),
    partialSum_succ f 0 (by omega), partialSum_zero]
  rfl

end Cert.Spec

end
-- ==== Proof.FinalZ.lean ====
/-
  The first region's output array after its run, at the exact extended reals: entry (r, q) of z is the sum over all
  32768 columns k of s (r, k) * v (k, q), for s and v the two factor arrays as the region finds them.
  Row half b of z is written back once, after the last of its 8 column blocks. At column block j of row half b the
  accumulator holds, at (p, q), the sum over the column blocks j' ≤ j of the block sums
  ∑ k < 4096, s (256 b + p, 4096 j' + k) * v (4096 j' + k, q): zero plus the first block sum at j = 0, the previous
  contents plus this block's sum after. After the eighth block that is the sum of all eight block sums, which is the
  sum over all columns regrouped by blocks — a regrouping of a finite sum in a commutative monoid, so it holds at
  infinite entries too. The write-backs at the two points with k = 7 cover the array's two row halves.
-/
import proofs.«139199_j20349555048715_2_alg».proof.Proof.IdealPieces
import proofs.«139199_j20349555048715_2_alg».proof.Proof.Payloads
import proofs.«139199_j20349555048715_2_alg».proof.Proof.Spec
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The arithmetic, over plain arrays of extended reals -/

/-- The block sum of column block j for row half b at (p, q). -/
def blockSum (s : (⟨2, ![512, 32768]⟩ : Shape).Idx → EReal) (v : (⟨2, ![32768, 64]⟩ : Shape).Idx → EReal)
    (b : Fin 2) (p : Fin 256) (q : Fin 64) (j : Fin 8) : EReal :=
  ∑ k : Fin 4096, s (ix2 (⟨b.val * 256 + p.val, Cert.Spec.block_pos_lt b p⟩ : Fin 512) (⟨j.val * 4096 + k.val, Cert.Spec.block_pos_lt j k⟩ : Fin 32768))
    * v (ix2 (⟨j.val * 4096 + k.val, Cert.Spec.block_pos_lt j k⟩ : Fin 32768) q)

/-- One point's step: when the two loaded blocks are block (b, j) of s and block j of v, the accumulator's new value
    at (p, q) is its old value plus the block sum. -/
theorem step_value (s : (⟨2, ![512, 32768]⟩ : Shape).Idx → EReal) (v : (⟨2, ![32768, 64]⟩ : Shape).Idx → EReal)
    (x0 : Vec Ideal S256x4096 .f32) (x1 : Vec Ideal S4096x64 .f32) (a : Vec Ideal S256x64 .f32) (b : Fin 2) (j : Fin 8)
    (h0 : ∀ (p : Fin 256) (k : Fin 4096), x0 (ix2 p k) = s (ix2 (⟨b.val * 256 + p.val, Cert.Spec.block_pos_lt b p⟩ : Fin 512) (⟨j.val * 4096 + k.val, Cert.Spec.block_pos_lt j k⟩ : Fin 32768)))
    (h1 : ∀ (k : Fin 4096) (q : Fin 64), x1 (ix2 k q) = v (ix2 (⟨j.val * 4096 + k.val, Cert.Spec.block_pos_lt j k⟩ : Fin 32768) q))
    (p : Fin 256) (q : Fin 64) :
    k0_pay2 x0 x1 a (ix2 p q) = a (ix2 p q) + blockSum s v b p q j := by
  rw [Payloads.pay2_apply]
  unfold blockSum
  congr 1
  exact Finset.sum_congr rfl fun k _ => by rw [h0, h1]

/-- The sum over all columns, regrouped by column blocks, is the sum of the eight block sums. -/
theorem Gz_blocks (s : (⟨2, ![512, 32768]⟩ : Shape).Idx → EReal) (v : (⟨2, ![32768, 64]⟩ : Shape).Idx → EReal)
    (b : Fin 2) (p : Fin 256) (q : Fin 64) :
    Cert.Spec.Gz s v (ix2 (⟨b.val * 256 + p.val, Cert.Spec.block_pos_lt b p⟩ : Fin 512) q) = ∑ j : Fin 8, blockSum s v b p q j := by
  rw [Cert.Spec.Gz_apply, Cert.Spec.sum_blocks]
  rfl

/-! ## The blocks of the two factor arrays -/

section
variable (V : (c : Dev nD) → (b : Ref sig .tc) → Buf (Elt Ideal) ((c : Thread nD τ).loc b))

/-- The printed index maps over the 16 grid points: point t is row half t / 8, column block t % 8. -/
theorem zidx : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

theorem zN (t : Fin cfg0.N) : t.val < 16 := lt_of_lt_of_eq t.isLt (show cfg0.N = 16 from N_0)

/-- The first factor's block at point 8 b + j, read at (p, k): the array at row 256 b + p, column 4096 j + k. -/
theorem sblk_apply (c : Dev nD) (t : Fin cfg0.N) (b : Fin 2) (j : Fin 8) (ht : t.val = b.val * 8 + j.val) (p : Fin 256) (k : Fin 4096) :
    iblk0 V c 0 t (ix2 p k) = V c main_arg0 (ix2 (⟨b.val * 256 + p.val, Cert.Spec.block_pos_lt b p⟩ : Fin 512) (⟨j.val * 4096 + k.val, Cert.Spec.block_pos_lt j k⟩ : Fin 32768)) := by
  obtain ⟨e0, e1, -, -, -, -⟩ := zidx t
  have hb := b.isLt; have hj := j.isLt
  show V c main_arg0 (((cfg0.win 0).blk t).view.emb (ix2 p k)) = _
  refine congrArg (V c main_arg0) (funext fun a => Fin.ext ?_)
  match a with
  | ⟨0, _⟩ => show win0_0.index t (0 : Fin 2) * 256 + 1 * p.val = b.val * 256 + p.val; omega
  | ⟨1, _⟩ => show win0_0.index t (1 : Fin 2) * 4096 + 1 * k.val = j.val * 4096 + k.val; omega

/-- The second factor's block at that point, read at (k, q): the array at row 4096 j + k, column q. -/
theorem vblk_apply (c : Dev nD) (t : Fin cfg0.N) (b : Fin 2) (j : Fin 8) (ht : t.val = b.val * 8 + j.val) (k : Fin 4096) (q : Fin 64) :
    iblk0 V c 1 t (ix2 k q) = V c main_arg2 (ix2 (⟨j.val * 4096 + k.val, Cert.Spec.block_pos_lt j k⟩ : Fin 32768) q) := by
  obtain ⟨-, -, e2, e3, -, -⟩ := zidx t
  have hb := b.isLt; have hj := j.isLt
  show V c main_arg2 (((cfg0.win 1).blk t).view.emb (ix2 k q)) = _
  refine congrArg (V c main_arg2) (funext fun a => Fin.ext ?_)
  match a with
  | ⟨0, _⟩ => show win0_1.index t (0 : Fin 2) * 4096 + 1 * k.val = j.val * 4096 + k.val; omega
  | ⟨1, _⟩ => show win0_1.index t (1 : Fin 2) * 64 + 1 * q.val = q.val; omega

/-! ## The accumulator, point by point -/

theorem outsAt0_congr (c : Dev nD) (n n' : ℕ) (hn : n < cfg0.N) (hn' : n' < cfg0.N) (h : n = n') :
    outsAt0 V c n hn = outsAt0 V c n' hn' := by subst h; rfl

/-- The accumulator after the body at the j-th column block of row half b: the running sum of the block sums up to j. -/
theorem acc_spec (c : Dev nD) (b : Fin 2) (p : Fin 256) (q : Fin 64) :
    ∀ (j : ℕ) (hj : j < 8) (hn : b.val * 8 + j < cfg0.N),
      (outsAt0 V c (b.val * 8 + j) hn).2 (ix2 p q) = Cert.Spec.partialSum (blockSum (V c main_arg0) (V c main_arg2) b p q) j
  | 0, hj, hn => by
    have hb := b.isLt
    have h0 : (⟨b.val * 8 + 0, hn⟩ : Fin cfg0.N).val % 8 = 0 := by show (b.val * 8 + 0) % 8 = 0; omega
    have e := outsAt0_A V c ⟨b.val * 8 + 0, hn⟩ h0
    rw [show outsAt0 V c (b.val * 8 + 0) hn = outsAt0 V c (⟨b.val * 8 + 0, hn⟩ : Fin cfg0.N).val (⟨b.val * 8 + 0, hn⟩ : Fin cfg0.N).isLt from rfl, e]
    dsimp only
    rw [sout0_A_eq]
    refine (step_value (V c main_arg0) (V c main_arg2) _ _ _ b ⟨0, by norm_num⟩
      (fun p k => sblk_apply V c _ b ⟨0, by norm_num⟩ (by rfl) p k) (fun k q => vblk_apply V c _ b ⟨0, by norm_num⟩ (by rfl) k q) p q).trans ?_
    rw [Payloads.pay1_apply, zero_add, Cert.Spec.partialSum_zero]
  | j + 1, hj, hn => by
    have hb := b.isLt
    have h0 : ¬ (⟨b.val * 8 + (j + 1), hn⟩ : Fin cfg0.N).val % 8 = 0 := by show ¬ (b.val * 8 + (j + 1)) % 8 = 0; omega
    have e := outsAt0_B V c ⟨b.val * 8 + (j + 1), hn⟩ h0
    have hprev : b.val * 8 + j < cfg0.N := Nat.lt_of_succ_lt hn
    have ih := acc_spec c b p q j (by omega) hprev
    rw [show outsAt0 V c (b.val * 8 + (j + 1)) hn = outsAt0 V c (⟨b.val * 8 + (j + 1), hn⟩ : Fin cfg0.N).val (⟨b.val * 8 + (j + 1), hn⟩ : Fin cfg0.N).isLt from rfl, e]
    dsimp only
    rw [sout0_B_eq]
    refine (step_value (V c main_arg0) (V c main_arg2) _ _ _ b ⟨j + 1, hj⟩
      (fun p k => sblk_apply V c _ b ⟨j + 1, hj⟩ (by rfl) p k) (fun k q => vblk_apply V c _ b ⟨j + 1, hj⟩ (by rfl) k q) p q).trans ?_
    rw [Cert.Spec.partialSum_succ _ j hj]
    congr 1
    all_goals first
      | exact (congrArg (fun o => o.2 (ix2 p q)) (outsAt0_congr V c _ _ _ hprev (by show b.val * 8 + (j + 1) - 1 = b.val * 8 + j; omega))).trans ih
      | rfl

/-- The output block after the body is the accumulator's contents after it, narrowed. -/
theorem out_eq_acc (c : Dev nD) (t : Fin cfg0.N) :
    (outsAt0 V c t.val t.isLt).1 = k0_pay3 (outsAt0 V c t.val t.isLt).2 := by
  by_cases h0 : t.val % 8 = 0
  · rw [outsAt0_A V c t h0]; dsimp only
    rw [out0_A_eq, sout0_A_eq]
  · rw [outsAt0_B V c t h0]; dsimp only
    rw [out0_B_eq, sout0_B_eq]

/-! ## From the written-back blocks to the array -/

/-- An index of z is in point t's block iff each coordinate is in the block's range on its axis. -/
theorem mem_zblk (t : Fin cfg0.N) (i : S512x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v0).slice (win0_2.rect t)).set ↔ _
  rw [View.set_slice_whole, Rect.mem_set_unit]
  exact Iff.rfl

set_option maxRecDepth 200000 in
/-- What a point with k = 7 writes back is its block of z. -/
theorem zflushed_eq (c : Dev nD) (t : Fin cfg0.N) (hf : (cfg0.win 2).flush t = true) :
    (dat0 V c).flushed 2 t = ((cfg0.win 2).blk t).view.read (Elt Ideal) (Cert.Spec.Gz (V c main_arg0) (V c main_arg2)) := by
  have h7 : t.val % 8 = 7 := (flush0_2 t).mp hf
  have ht := zN t
  obtain ⟨-, -, -, -, e4, e5⟩ := zidx t
  have hb : t.val / 8 < 2 := by omega
  have hn : (⟨t.val / 8, hb⟩ : Fin 2).val * 8 + 7 < cfg0.N :=
    lt_of_lt_of_eq (show t.val / 8 * 8 + 7 < 16 by omega) (show (16 : ℕ) = cfg0.N from N_0.symm)
  have hacc : ∀ (p : Fin 256) (q : Fin 64), (outsAt0 V c t.val t.isLt).2 (ix2 p q)
      = ∑ j : Fin 8, blockSum (V c main_arg0) (V c main_arg2) ⟨t.val / 8, hb⟩ p q j := fun p q =>
    ((congrArg (fun o => o.2 (ix2 p q)) (outsAt0_congr V c _ _ _ hn (by show t.val = t.val / 8 * 8 + 7; omega))).trans
      (acc_spec V c ⟨t.val / 8, hb⟩ p q 7 (by norm_num) hn)).trans (Cert.Spec.partial_seven _)
  show (cfg0.win 2).cut (grid0.coords t) ((dat0 V c).after 2 t) = _
  rw [after0_2, out_eq_acc]
  generalize (outsAt0 V c t.val t.isLt).2 = X at hacc ⊢
  funext j
  obtain ⟨p, q, rfl⟩ : ∃ (p : Fin 256) (q : Fin 64), j = ix2 p q := ⟨j 0, j 1, eq_ix2 j⟩
  show k0_pay3 X (ix2 p q) = _
  show _ = Cert.Spec.Gz (V c main_arg0) (V c main_arg2) (((cfg0.win 2).blk t).view.emb (ix2 p q))
  have hemb : ((cfg0.win 2).blk t).view.emb (ix2 p q) = ix2 (⟨(⟨t.val / 8, hb⟩ : Fin 2).val * 256 + p.val, Cert.Spec.block_pos_lt (⟨t.val / 8, hb⟩ : Fin 2) p⟩ : Fin 512) q := by
    funext a; apply Fin.ext
    match a with
    | ⟨0, _⟩ => show win0_2.index t (0 : Fin 2) * 256 + 1 * p.val = t.val / 8 * 256 + p.val; omega
    | ⟨1, _⟩ => show win0_2.index t (1 : Fin 2) * 64 + 1 * q.val = q.val; omega
  rw [hemb, Payloads.pay3_apply, Gz_blocks]
  exact hacc p q

/-- The two write-backs cover z: row r is in row half r / 256, written back at its last column block. -/
theorem zcover (i : S512x64.Idx) : ∃ t : Fin cfg0.N, (cfg0.win 2).flush t = true ∧ i ∈ ((cfg0.win 2).blk t).view.set := by
  have hi0 : (i 0).val < 512 := (i 0).isLt
  have hi1 : (i 1).val < 64 := (i 1).isLt
  have hlt : (i 0).val / 256 * 8 + 7 < cfg0.N := lt_of_lt_of_eq (show (i 0).val / 256 * 8 + 7 < 16 by omega) (show (16 : ℕ) = cfg0.N from N_0.symm)
  refine ⟨⟨(i 0).val / 256 * 8 + 7, hlt⟩, (flush0_2 _).mpr (by show ((i 0).val / 256 * 8 + 7) % 8 = 7; omega), ?_⟩
  rw [mem_zblk]
  obtain ⟨-, -, -, -, e4, e5⟩ := zidx ⟨(i 0).val / 256 * 8 + 7, hlt⟩
  have e4' : win0_2.index ⟨(i 0).val / 256 * 8 + 7, hlt⟩ (0 : Fin 2) = ((i 0).val / 256 * 8 + 7) / 8 := e4
  intro a
  match a with
  | ⟨0, _⟩ =>
    show win0_2.index ⟨(i 0).val / 256 * 8 + 7, hlt⟩ (0 : Fin 2) * 256 ≤ (i 0).val ∧ (i 0).val < win0_2.index ⟨(i 0).val / 256 * 8 + 7, hlt⟩ (0 : Fin 2) * 256 + 256
    omega
  | ⟨1, _⟩ =>
    show win0_2.index ⟨(i 0).val / 256 * 8 + 7, hlt⟩ (1 : Fin 2) * 64 ≤ (i 1).val ∧ (i 1).val < win0_2.index ⟨(i 0).val / 256 * 8 + 7, hlt⟩ (1 : Fin 2) * 64 + 64
    omega

/-- z after the first region's run: the whole product of the two factor arrays as the region finds them. -/
theorem finalZ (c : Dev nD) : (dat0 V c).arrAt 2 cfg0.N = Cert.Spec.Gz (V c main_arg0) (V c main_arg2) :=
  (dat0 V c).arrAt_eq_of_cover 2 _ (fun t hf => zflushed_eq V c t hf) (zcover)

end

end Cert.KernelIdeal.Run

end
-- ==== Proof.FinalY.lean ====
/- The second region's output array after its eight write-backs, at the ideal values.

   The region holds z [512, 64] whole, and at grid point t reads rows t * 4096 … t * 4096 + 4095 of
   u [32768, 64] and writes columns t * 4096 … t * 4096 + 4095 of the output [512, 32768]. The body's
   product at (p, n) of the block is ∑ r, z (p, r) * u (t * 4096 + n, r), which is the entry
   (p, t * 4096 + n) of `Gy z u`; the eight column blocks tile the output, so the array ends as `Gy z u`. -/
import proofs.«139199_j20349555048715_2_alg».proof.Proof.IdealYRegion
import proofs.«139199_j20349555048715_2_alg».proof.Proof.Payloads
import proofs.«139199_j20349555048715_2_alg».proof.Proof.Spec
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The body's loads and its store start at the origin of their blocks. -/
theorem offsets_zero : (![0, 0] : Fin 2 → Nat) = fun _ => 0 := funext fun a => by fin_cases a <;> rfl

/-- The block indices over the grid: z's block never moves; u's block is row block `t`; the output's is
    column block `t`. -/
theorem block_indices : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- One grid point's product: for a left block that is `z` and a right block that is rows
    `tv * 4096 …` of `u`, the body's value at `(p, n)` is `Gy z u` at `(p, tv * 4096 + n)`. -/
theorem point_product (z : (⟨2, ![512, 64]⟩ : Shape).Idx → EReal) (u : (⟨2, ![32768, 64]⟩ : Shape).Idx → EReal)
    (x0 : Vec Ideal S512x64 .bf16) (x1 : Vec Ideal S4096x64 .f32) (tv : ℕ) (htv : tv < 8)
    (h0 : ∀ (p : Fin 512) (r : Fin 64), x0 (ValueIdx.ix2 p r) = z (ValueIdx.ix2 p r))
    (h1 : ∀ (n : Fin 4096) (r : Fin 64),
      x1 (ValueIdx.ix2 n r) = u (ValueIdx.ix2 (⟨tv * 4096 + n.val, by have := n.isLt; omega⟩ : Fin 32768) r))
    (p : Fin 512) (n : Fin 4096) :
    k1_pay1 x0 x1 (ValueIdx.ix2 p n)
      = Cert.Spec.Gy z u (ValueIdx.ix2 p (⟨tv * 4096 + n.val, by have := n.isLt; omega⟩ : Fin 32768)) := by
  rw [Payloads.ypay_apply, Cert.Spec.Gy_apply]
  exact Finset.sum_congr rfl fun r _ => by rw [h0, h1]

section
variable (V : (c : Dev nD) → (b : Ref sig .tc) → Buf (Elt Ideal) ((c : Thread nD τ).loc b))

/-- What point `t` writes back is block `t` of `Gy` of z and u as the region finds them. -/
theorem flushed_eq_Gy (c : Dev nD) (t : Fin cfg1.N) :
    (dat1 V c).flushed 2 t
      = ((cfg1.win 2).blk t).view.read (Elt Ideal) (Cert.Spec.Gy (V c main_v0) (V c main_arg1)) := by
  show (cfg1.win 2).cut (grid1.coords t) ((dat1 V c).after 2 t) = _
  rw [after1_2]
  unfold out1
  rw [View.canon_unit_zero offsets_zero]
  simp only [View.ld_unit_zero (S := S512x64) offsets_zero, View.ld_unit_zero (S := S4096x64) offsets_zero]
  obtain ⟨e0, e1, e2, e3, e4, e5⟩ := block_indices t
  have ht : t.val < 8 := t.isLt
  funext j
  obtain ⟨p, n, rfl⟩ : ∃ (p : Fin 512) (n : Fin 4096), j = ValueIdx.ix2 p n := ⟨j 0, j 1, ValueIdx.eq_ix2 j⟩
  show k1_pay1 (iblk1 V c 0 t) (iblk1 V c 1 t) (ValueIdx.ix2 p n)
    = Cert.Spec.Gy (V c main_v0) (V c main_arg1) (((cfg1.win 2).blk t).view.emb (ValueIdx.ix2 p n))
  have hemb : ((cfg1.win 2).blk t).view.emb (ValueIdx.ix2 p n)
      = ValueIdx.ix2 p (⟨t.val * 4096 + n.val, by have := n.isLt; omega⟩ : Fin 32768) := by
    funext a; apply Fin.ext
    match a with
    | ⟨0, _⟩ => show win1_2.index t (0 : Fin 2) * 512 + 1 * p.val = p.val; omega
    | ⟨1, _⟩ => show win1_2.index t (1 : Fin 2) * 4096 + 1 * n.val = t.val * 4096 + n.val; omega
  rw [hemb]
  refine point_product _ _ _ _ t.val ht (fun p r => ?_) (fun n r => ?_) p n
  · show V c main_v0 (((cfg1.win 0).blk t).view.emb (ValueIdx.ix2 p r)) = V c main_v0 (ValueIdx.ix2 p r)
    refine congrArg (V c main_v0) (funext fun a => Fin.ext ?_)
    match a with
    | ⟨0, _⟩ => show win1_0.index t (0 : Fin 2) * 512 + 1 * p.val = p.val; omega
    | ⟨1, _⟩ => show win1_0.index t (1 : Fin 2) * 64 + 1 * r.val = r.val; omega
  · show V c main_arg1 (((cfg1.win 1).blk t).view.emb (ValueIdx.ix2 n r))
      = V c main_arg1 (ValueIdx.ix2 (⟨t.val * 4096 + n.val, by have := n.isLt; omega⟩ : Fin 32768) r)
    refine congrArg (V c main_arg1) (funext fun a => Fin.ext ?_)
    match a with
    | ⟨0, _⟩ => show win1_1.index t (0 : Fin 2) * 4096 + 1 * n.val = t.val * 4096 + n.val; omega
    | ⟨1, _⟩ => show win1_1.index t (1 : Fin 2) * 64 + 1 * r.val = r.val; omega

/-- An index of the output is in point `t`'s block iff each coordinate is in the block's range on its axis. -/
theorem mem_block (t : Fin cfg1.N) (i : S512x32768.Idx) :
    i ∈ ((cfg1.win 2).blk t).view.set ↔ ∀ a : Fin 2, win1_2.index t a * S512x4096.size a ≤ (i a).val
      ∧ (i a).val < win1_2.index t a * S512x4096.size a + S512x4096.size a := by
  show i ∈ ((View.whole main_v1).slice (win1_2.rect t)).set ↔ _
  rw [View.set_slice_whole, Rect.mem_set_unit]
  exact Iff.rfl

/-- Every index `(b, n)` of the output is in the block of the point `n / 4096`, which writes back. -/
theorem blocks_cover (i : S512x32768.Idx) :
    ∃ t : Fin cfg1.N, (cfg1.win 2).flush t = true ∧ i ∈ ((cfg1.win 2).blk t).view.set := by
  have hi0 : (i 0).val < 512 := (i 0).isLt
  have hi1 : (i 1).val < 32768 := (i 1).isLt
  have hlt : (i 1).val / 4096 < cfg1.N := by show (i 1).val / 4096 < 8; omega
  obtain ⟨-, -, -, -, e4, e5⟩ := block_indices ⟨(i 1).val / 4096, hlt⟩
  have e5' : win1_2.index ⟨(i 1).val / 4096, hlt⟩ (1 : Fin 2) = (i 1).val / 4096 := e5
  refine ⟨⟨(i 1).val / 4096, hlt⟩, flush1_2 _, ?_⟩
  rw [mem_block]
  intro a
  match a with
  | ⟨0, _⟩ =>
    show win1_2.index ⟨(i 1).val / 4096, hlt⟩ (0 : Fin 2) * 512 ≤ (i 0).val
      ∧ (i 0).val < win1_2.index ⟨(i 1).val / 4096, hlt⟩ (0 : Fin 2) * 512 + 512
    omega
  | ⟨1, _⟩ =>
    show win1_2.index ⟨(i 1).val / 4096, hlt⟩ (1 : Fin 2) * 4096 ≤ (i 1).val
      ∧ (i 1).val < win1_2.index ⟨(i 1).val / 4096, hlt⟩ (1 : Fin 2) * 4096 + 4096
    omega

/-- The output array after the region's eight write-backs is `Gy` of z and u as the region finds them. -/
theorem finalY (c : Dev nD) :
    (dat1 V c).arrAt 2 cfg1.N = Cert.Spec.Gy (V c main_v0) (V c main_arg1) :=
  (dat1 V c).arrAt_eq_of_cover 2 _ (fun t _ => flushed_eq_Gy V c t) blocks_cover

end

end Cert.KernelIdeal.Run

end
-- ==== Proof.RefIsSpec.lean ====
/- The reference's result is the specification.

   The reference multiplies the spikes by `v`, transposes `u`, and multiplies again: read at an
   index `(b, n)` its result is `∑ r, (∑ k, s (b, k) * v (k, r)) * u (n, r)`, the transpose read
   at `(r, n)` being `u (n, r)`. That is `G s u v (b, n)` term by term. -/
import proofs.«139199_j20349555048715_2_alg».proof.Proof.Spec
import proofs.«139199_j20349555048715_2_alg».proof.Proof.Gen.ReferenceIdeal.Read

noncomputable section

namespace Cert.ReferenceIdeal.RefValue

open Cert.ReferenceIdeal Cert.ReferenceIdeal.Gen Idealize.ShloMosaic Idealize.ShloMosaic.StableHlo

/-- The left operand of the second product is read at `(b, r)`. -/
theorem lidx_v2 (b : Fin 512) (n : Fin 32768) (r : Fin 64) :
    Read.lidx_main_v2 (ValueIdx.ix2 b n) r = ValueIdx.ix2 b r :=
  funext fun a => Fin.ext (by match a with | ⟨0, _⟩ => rfl | ⟨1, _⟩ => rfl)
/-- The right operand of the second product, the transpose, is read at `(r, n)`. -/
theorem ridx_v2 (b : Fin 512) (n : Fin 32768) (r : Fin 64) :
    Read.ridx_main_v2 (ValueIdx.ix2 b n) r = ValueIdx.ix2 r n :=
  funext fun a => Fin.ext (by match a with | ⟨0, _⟩ => rfl | ⟨1, _⟩ => rfl)
/-- The transpose at `(r, n)` reads its operand at `(n, r)`. -/
theorem idx_v1 (n : Fin 32768) (r : Fin 64) :
    Read.idx_main_v1 (ValueIdx.ix2 r n) = ValueIdx.ix2 n r :=
  funext fun a => Fin.ext (by match a with | ⟨0, _⟩ => rfl | ⟨1, _⟩ => rfl)
/-- The left operand of the first product is read at `(b, k)`. -/
theorem lidx_v0 (b : Fin 512) (r : Fin 64) (k : Fin 32768) :
    Read.lidx_main_v0 (ValueIdx.ix2 b r) k = ValueIdx.ix2 b k :=
  funext fun a => Fin.ext (by match a with | ⟨0, _⟩ => rfl | ⟨1, _⟩ => rfl)
/-- The right operand of the first product is read at `(k, r)`. -/
theorem ridx_v0 (b : Fin 512) (r : Fin 64) (k : Fin 32768) :
    Read.ridx_main_v0 (ValueIdx.ix2 b r) k = ValueIdx.ix2 k r :=
  funext fun a => Fin.ext (by match a with | ⟨0, _⟩ => rfl | ⟨1, _⟩ => rfl)

/-- The reference's last stage, as a function of its three arrays, is `G` of them. -/
theorem ref_val_eq (a0 : (⟨S512x32768, .f32⟩ : BufTy).Contents (Elt Ideal))
    (a1 a2 : (⟨S32768x64, .f32⟩ : BufTy).Contents (Elt Ideal)) :
    Read.val_main_v2 (F := Ideal) a0 a1 a2 = Cert.Spec.G a0 a1 a2 := by
  funext i
  obtain ⟨b, n, rfl⟩ : ∃ (b : Fin 512) (n : Fin 32768), i = ValueIdx.ix2 b n := ⟨i 0, i 1, ValueIdx.eq_ix2 i⟩
  rw [Read.val_main_v2_apply]
  refine Eq.trans ?_ (Cert.Spec.Gy_apply (Cert.Spec.Gz a0 a2) a1 b n).symm
  refine Finset.sum_congr rfl fun r _ => ?_
  rw [lidx_v2, ridx_v2, Read.val_main_v0_apply, Read.val_main_v1_apply, idx_v1]
  refine congrArg (· * a1 (ValueIdx.ix2 n r)) ?_
  refine Eq.trans ?_ (Cert.Spec.Gz_apply a0 a2 b r).symm
  refine Finset.sum_congr rfl fun k _ => ?_
  rw [lidx_v0, ridx_v0]

/-- The reference's composed term of its three arrays — the product of the product `s · v` with the
    transpose of `u` — is `G` of them. -/
theorem ref_eq (a0 : (⟨S512x32768, .f32⟩ : BufTy).Contents (Elt Ideal))
    (a1 a2 : (⟨S32768x64, .f32⟩ : BufTy).Contents (Elt Ideal)) :
    Host.dotGeneral (F := Ideal) (φ₁ := .f32) (φ₂ := .f32) dot_S512x64_S64x32768_S512x32768_1_0_0_1_n_n none
        (Host.dotGeneral (F := Ideal) (φ₁ := .f32) (φ₂ := .f32) dot_S512x32768_S32768x64_S512x64_1_0_0_1_n_n none a0 a2)
        (transpose (α := Ideal .f32) S64x32768 [1, 0] a1 transposes_S32768x64_S64x32768_1_0)
      = Cert.Spec.G a0 a1 a2 :=
  (Read.val_main_v2_eq (F := Ideal) a0 a1 a2).trans (ref_val_eq a0 a1 a2)

end Cert.ReferenceIdeal.RefValue

end
-- ==== Proof.lean ====
/-
  The kernel computes y = (s V) Uᵀ for s : [512, 32768], V, U : [32768, 64] in two regions: z = s V accumulated over
  eight column blocks of s per row half (a scratch accumulator zeroed at the first block, the block products added to
  it, the output block written back after the eighth), then y = z Uᵀ one block of 4096 rows of U at a time. The
  reference is the two matrix products in one piece each. Three further inputs are read by neither.
  At the exact extended reals a change of float format is the identity and every product accumulates into zero, so
  both programs end with entry (b, n) of the result equal to ∑ r < 64, (∑ k < 32768, s (b, k) · V (k, r)) · U (n, r):
  the reference by reading its two contractions at an index, the kernel because the eight block sums of a row of s
  against a column of V are the whole sum regrouped — associativity and commutativity of + on the extended reals,
  which hold at infinite entries as well, so the precondition is never opened.
  Each frame: the run of a program ends, faults nowhere, and writes only the intermediate z and the result, so every
  argument array ends as launched; the kernel's at both instances from one statement about its two regions in order,
  the reference's from its run. No operation was rewritten for the idealized kernel, so that conjunct is trivial.
-/
import proofs.«139199_j20349555048715_2_alg».proof.Defs
import proofs.«139199_j20349555048715_2_alg».proof.Proof.Gen.Kernel
import proofs.«139199_j20349555048715_2_alg».proof.Proof.Gen.KernelIdeal
import proofs.«139199_j20349555048715_2_alg».proof.Proof.Gen.ReferenceIdeal
import proofs.«139199_j20349555048715_2_alg».proof.Proof.Gen.ReferenceIdeal.Run
import proofs.«139199_j20349555048715_2_alg».proof.Proof.Gen.ReferenceIdeal.Read
import proofs.«139199_j20349555048715_2_alg».proof.Proof.Gen.Pre_finite_inputs
import proofs.«139199_j20349555048715_2_alg».proof.Proof.BitsRun
import proofs.«139199_j20349555048715_2_alg».proof.Proof.IdealRun
import proofs.«139199_j20349555048715_2_alg».proof.Proof.FinalZ
import proofs.«139199_j20349555048715_2_alg».proof.Proof.FinalY
import proofs.«139199_j20349555048715_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_kernel : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Run.run_all (F := Bits) m ρ)

/-- So does the idealized kernel. -/
theorem frame_kernelIdeal : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Run.run_all (F := Ideal) m ρ)

/-- And the reference: its run with the result dropped. -/
theorem frame_reference : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

open Cert.KernelIdeal Cert.KernelIdeal.Run in
/-- The kernel's result array after the run: the second region's product of what the first region left in z — the whole
    product s V — with U as launched, no region writing U. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (dat1 (V1 m ρ) c).arrAt 2 cfg1.N
      = Cert.Spec.G (m ((c.tc : Thread nD τ).loc main_arg0)) (m ((c.tc : Thread nD τ).loc main_arg1)) (m ((c.tc : Thread nD τ).loc main_arg2)) := by
  refine (finalY (V1 m ρ) c).trans ?_
  rw [show V1 m ρ c main_v0 = Cert.Spec.Gz (m ((c.tc : Thread nD τ).loc main_arg0)) (m ((c.tc : Thread nD τ).loc main_arg2)) from
        (W1_arr m ρ c 2).trans (finalZ (V0 m ρ) c),
      show V1 m ρ c main_arg1 = m ((c.tc : Thread nD τ).loc main_arg1) from W1_of_ne m ρ c main_arg1 (by decide)]
  rfl

/-- From memories agreeing on the arguments both idealized programs end with the result at one function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run (Cert.KernelIdeal.defs (F := Ideal)) _ _).mono (fun r h c => ⟨(h c).1.trans (kernel_value m ρ c), (h c).2⟩)
      (Cert.KernelIdeal.Run.run_all (F := Ideal) m ρ)
  · refine (θ_run (Cert.ReferenceIdeal.defs (F := Ideal)) _ _).mono (fun r h c => ⟨((h c).1.trans (Cert.ReferenceIdeal.RefValue.ref_eq _ _ _)).trans ?_, (h c).2⟩)
      (Cert.ReferenceIdeal.Value.run (F := Ideal) m' ρ')
    rw [(hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
